-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  main_v3
-- ==== Kernel.lean ====
abbrev S8192x4096 : Shape := ⟨2, ![8192, 4096]⟩
abbrev S8192x8192 : Shape := ⟨2, ![8192, 8192]⟩
abbrev S1024x512 : Shape := ⟨2, ![1024, 512]⟩
abbrev S1024x1024 : Shape := ⟨2, ![1024, 1024]⟩
abbrev S512x1024 : Shape := ⟨2, ![512, 1024]⟩
abbrev S512x1x1024 : Shape := ⟨3, ![512, 1, 1024]⟩
abbrev S512x2x1024 : Shape := ⟨3, ![512, 2, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8192x4096, .f32⟩
  | .hbm, ⟨1, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S1024x1024, .f32⟩
  | .local _ .vmem, ⟨3, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1024x512_S1024x512_0_0 : ∀ a, (![0, 0] : Fin 2 → Nat) a + S1024x512.size a ≤ S1024x512.size a
  h_S1024x512 : 0 < S1024x512.numel
  transposes_S1024x512_p1_0_S512x1024 : S1024x512.Transposes [1, 0] S512x1024
  shapeCasts_S512x1024_S512x1x1024 : S512x1024.ShapeCasts S512x1x1024
  concatenates_S512x1x1024_S512x1x1024_S512x2x1024_d1 : Shape.Concatenates [S512x1x1024, S512x1x1024] S512x2x1024 1
  shapeCasts_S512x2x1024_S1024x1024 : S512x2x1024.ShapeCasts S1024x1024
  transposes_S1024x1024_p1_0_S1024x1024 : S1024x1024.Transposes [1, 0] S1024x1024
  inb_S1024x1024_S1024x1024_0_0 : ∀ a, (![0, 0] : Fin 2 → Nat) a + S1024x1024.size a ≤ S1024x1024.size a
  h_S1024x1024 : 0 < S1024x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x8192.size a
  hwx0_1 : ∀ i : grid0.Coords, EltTy.bits .f32 = 32 ∨ (Rect.block (s := S8192x8192) S1024x1024.size (cc0_transform_1 i) (hinb0_1 i)).WholeWords (EltTy.packing .f32)

variable [Facts₀]

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S_ : Shape := ⟨0, ![]⟩
abbrev S8192x4096x1 : Shape := ⟨3, ![8192, 4096, 1]⟩
abbrev S8192x4096x2 : Shape := ⟨3, ![8192, 4096, 2]⟩
abbrev S8192x8192 : Shape := ⟨2, ![8192, 8192]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S_, .f32⟩
  | .hbm, ⟨2, _⟩ => ⟨S8192x4096, .f32⟩
  | .hbm, ⟨3, _⟩ => ⟨S8192x4096x1, .f32⟩
  | .hbm, ⟨4, _⟩ => ⟨S8192x4096x1, .f32⟩
  | .hbm, ⟨5, _⟩ => ⟨S8192x4096x2, .f32⟩
  | .hbm, ⟨6, _⟩ => ⟨S8192x8192, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  bcast_S8192x4096_S8192x4096x1_0_1 : S8192x4096.BroadcastsInDim S8192x4096x1 (![0, 1] : Fin 2 → Fin S8192x4096x1.rank)
  concatenates_S8192x4096x1_S8192x4096x1_S8192x4096x2_d2 : Shape.Concatenates [S8192x4096x1, S8192x4096x1] S8192x4096x2 2
  shapeCasts_S8192x4096x2_S8192x8192 : S8192x4096x2.ShapeCasts S8192x8192

variable [Facts₀]

class Facts : Prop extends Facts₀ where

variable [Facts]
-- ==== Proof.LibInterleave.lean ====
/-
  The function both programs compute: a matrix whose columns are interleaved with a constant.
  For `x` of `R` rows and `C` columns and a value `z`, the result has `R` rows and `2 C` columns;
  its column `2 k` is column `k` of `x` and its column `2 k + 1` is `z` everywhere.
  Nothing here is arithmetic on the entries, so the element type is arbitrary.
  The second fact below is the one tiling law the kernel needs: a tile of the interleaved matrix that starts
  at an even column is the interleaving of the corresponding tile of `x` (half as wide).
-/
import Idealize.ShloMosaic.Lib.ValueIdx

noncomputable section

namespace Cert.Interleave

open Idealize.ShloMosaic Idealize.ShloMosaic.ValueIdx

variable {α : Type}

/-- `x` with the constant `z` put after each of its columns: entry `(r, c)` is `x (r, c / 2)` for even `c`
    and `z` for odd `c`. The result's column count `C2` is given with the equation `C2 = 2 * C`, so that a
    literal shape is one of these shapes as it stands. -/
def interleaved {R C C2 : Nat} (h : C2 = 2 * C) (x : (⟨2, ![R, C]⟩ : Shape).Idx → α) (z : α) :
    (⟨2, ![R, C2]⟩ : Shape).Idx → α :=
  fun i => if (i 1).val % 2 = 0
    then x (ix2 (⟨(i 0).val, idx2_lt0 i⟩ : Fin R) (⟨(i 1).val / 2, by have := idx2_lt1 i; omega⟩ : Fin C))
    else z

/-- At an even column the interleaved matrix reads `x` at half the column. -/
theorem interleaved_even {R C C2 : Nat} (h : C2 = 2 * C) (x : (⟨2, ![R, C]⟩ : Shape).Idx → α) (z : α)
    (i : (⟨2, ![R, C2]⟩ : Shape).Idx) (hi : (i 1).val % 2 = 0) (k : (⟨2, ![R, C]⟩ : Shape).Idx)
    (h0 : (k 0).val = (i 0).val) (h1 : (k 1).val = (i 1).val / 2) :
    interleaved h x z i = x k := by
  unfold interleaved
  rw [if_pos hi]
  refine congrArg x (funext fun a => Fin.ext ?_)
  match a with
  | ⟨0, _⟩ => exact h0.symm
  | ⟨1, _⟩ => exact h1.symm

/-- At an odd column it reads the constant. -/
theorem interleaved_odd {R C C2 : Nat} (h : C2 = 2 * C) (x : (⟨2, ![R, C]⟩ : Shape).Idx → α) (z : α)
    (i : (⟨2, ![R, C2]⟩ : Shape).Idx) (hi : ¬ (i 1).val % 2 = 0) :
    interleaved h x z i = z := by
  unfold interleaved
  rw [if_neg hi]

/-- TILES. Let `x0` be the tile of `X` whose first row is `ro` and first column `co`. Then the interleaving of
    `x0`, read at `y`, is the interleaving of `X` read at the index `i` that lies `ro` rows and `2 co` columns
    further on: the column offset is even, so parity is kept and half of it is the tile's column offset. -/
theorem interleaved_tile {R C C2 r c c2 : Nat} (H : C2 = 2 * C) (h : c2 = 2 * c)
    (X : (⟨2, ![R, C]⟩ : Shape).Idx → α) (x0 : (⟨2, ![r, c]⟩ : Shape).Idx → α) (z : α) (ro co : Nat)
    (hx : ∀ (a : (⟨2, ![r, c]⟩ : Shape).Idx) (b : (⟨2, ![R, C]⟩ : Shape).Idx),
      (b 0).val = ro + (a 0).val → (b 1).val = co + (a 1).val → x0 a = X b)
    (y : (⟨2, ![r, c2]⟩ : Shape).Idx) (i : (⟨2, ![R, C2]⟩ : Shape).Idx)
    (hi0 : (i 0).val = ro + (y 0).val) (hi1 : (i 1).val = 2 * co + (y 1).val) :
    interleaved h x0 z y = interleaved H X z i := by
  have hy1 : (y 1).val < c2 := idx2_lt1 y
  have hi1' : (i 1).val < C2 := idx2_lt1 i
  have hi0' : (i 0).val < R := idx2_lt0 i
  by_cases hp : (y 1).val % 2 = 0
  · have hq : (i 1).val % 2 = 0 := by omega
    rw [interleaved_even h x0 z y hp (ix2 (⟨(y 0).val, idx2_lt0 y⟩ : Fin r) (⟨(y 1).val / 2, by omega⟩ : Fin c)) rfl rfl,
      interleaved_even H X z i hq (ix2 (⟨(i 0).val, hi0'⟩ : Fin R) (⟨(i 1).val / 2, by omega⟩ : Fin C)) rfl rfl]
    refine hx _ _ ?_ ?_
    · show (i 0).val = ro + (y 0).val
      exact hi0
    · show (i 1).val / 2 = co + (y 1).val / 2
      omega
  · have hq : ¬ (i 1).val % 2 = 0 := by omega
    rw [interleaved_odd h x0 z y hp, interleaved_odd H X z i hq]

end Cert.Interleave

end
-- ==== Proof.BlockValue.lean ====
/-
  What the kernel body stores, as a function of the tile it loads.
  The body transposes its `[1024, 512]` tile to `[512, 1024]`, gives it and an all-zero array of that shape a
  unit middle axis, joins the two along it — entry `(k, 0, r)` is `x (r, k)`, entry `(k, 1, r)` is zero —,
  flattens the first two axes (row `2 k + p` of the `[1024, 1024]` result is `(k, p)`) and transposes back.
  So entry `(r, c)` of what it stores is `x (r, c / 2)` for even `c` and zero for odd `c`: the tile interleaved
  with the zero word.
-/
import proofs.«136155_j8340826489317_1_alg».proof.Proof.Gen.KernelIdeal.Skeleton
import proofs.«136155_j8340826489317_1_alg».proof.Proof.LibInterleave
import Idealize.ShloMosaic.Lib.Pipeline.Value
import Idealize.ShloMosaic.Lib.ValueIdx

noncomputable section

namespace Cert.KernelIdeal.BlockValue

open Cert.KernelIdeal Cert.KernelIdeal.Gen Idealize.ShloMosaic Idealize.ShloMosaic.ValueIdx
open Cert.Interleave

variable {F : FTy → Type} [FloatOps F]

/-- The stored value is the loaded tile interleaved with the zero word. -/
theorem stored_eq (x0 : Vec F S1024x512 .f32) :
    k0_pay1 x0 = interleaved (R := 1024) (C := 512) (C2 := 1024) rfl x0 (Scalar.ofBits .f32 0x00000000#32) := by
  funext j
  have h0 : (j 0).val < 1024 := (j 0).isLt
  have h1 : (j 1).val < 1024 := (j 1).isLt
  unfold k0_pay1
  dsimp only
  -- the outer transpose: entry `(r, c)` is entry `(c, r)` of the flattened array
  refine (transpose_apply _ _ _ j (ix2 (⟨(j 1).val, h1⟩ : Fin 1024) (⟨(j 0).val, h0⟩ : Fin 1024))
    (fun b => match b with | ⟨0, _⟩ => rfl | ⟨1, _⟩ => rfl)).trans ?_
  -- the flattening: row `c` is `(c / 2, c % 2)`
  refine (shapeCast_apply _ _ _
    (ix3 (⟨(j 1).val / 2, by omega⟩ : Fin 512) (⟨(j 1).val % 2, by omega⟩ : Fin 2) (⟨(j 0).val, h0⟩ : Fin 1024))
    (by rw [Shape.rowMajor_val_three, Shape.rowMajor_val_two]
        show ((j 1).val / 2 * 2 + (j 1).val % 2) * 1024 + (j 0).val = (j 1).val * 1024 + (j 0).val
        omega)).trans ?_
  let k2 : S512x2x1024.Idx :=
    ix3 (⟨(j 1).val / 2, by omega⟩ : Fin 512) (⟨(j 1).val % 2, by omega⟩ : Fin 2) (⟨(j 0).val, h0⟩ : Fin 1024)
  let k : S512x1x1024.Idx := ix3 (⟨(j 1).val / 2, by omega⟩ : Fin 512) (0 : Fin 1) (⟨(j 0).val, h0⟩ : Fin 1024)
  by_cases hp : (j 1).val % 2 = 0
  · -- an even column: the first piece, the transposed tile with its unit axis
    refine (concatenate_pair_apply_left (t := S512x2x1024) (s₁ := S512x1x1024) (s₂ := S512x1x1024) (1 : Fin 3) _ _
      concatenates_S512x1x1024_S512x1x1024_S512x2x1024_d1 k2 (rfl : (3 : Nat) = 3) k (fun b => match b with
        | ⟨0, _⟩ => rfl
        | ⟨1, _⟩ => by show 0 = (j 1).val % 2; omega
        | ⟨2, _⟩ => rfl)).trans ?_
    refine (shapeCast_apply _ _ k
      (ix2 (⟨(j 1).val / 2, by omega⟩ : Fin 512) (⟨(j 0).val, h0⟩ : Fin 1024))
      (by rw [Shape.rowMajor_val_two, Shape.rowMajor_val_three]
          show (j 1).val / 2 * 1024 + (j 0).val = ((j 1).val / 2 * 1 + 0) * 1024 + (j 0).val
          omega)).trans ?_
    refine (transpose_apply _ _ _ _ (ix2 (⟨(j 0).val, h0⟩ : Fin 1024) (⟨(j 1).val / 2, by omega⟩ : Fin 512))
      (fun b => match b with | ⟨0, _⟩ => rfl | ⟨1, _⟩ => rfl)).trans ?_
    exact (interleaved_even _ x0 _ j hp _ rfl rfl).symm
  · -- an odd column: the second piece, zero everywhere
    refine (concatenate_pair_apply_right (t := S512x2x1024) (s₁ := S512x1x1024) (s₂ := S512x1x1024) (1 : Fin 3) _ _
      concatenates_S512x1x1024_S512x1x1024_S512x2x1024_d1 k2 (rfl : (3 : Nat) = 3) (rfl : (3 : Nat) = 3) k (fun b => match b with
        | ⟨0, _⟩ => fun _ => rfl
        | ⟨1, _⟩ => fun hne => absurd rfl hne
        | ⟨2, _⟩ => fun _ => rfl)
      (by show 0 + 1 = (j 1).val % 2; omega)).trans ?_
    refine (shapeCast_apply _ _ k
      (ix2 (⟨(j 1).val / 2, by omega⟩ : Fin 512) (⟨(j 0).val, h0⟩ : Fin 1024))
      (by rw [Shape.rowMajor_val_two, Shape.rowMajor_val_three]
          show (j 1).val / 2 * 1024 + (j 0).val = ((j 1).val / 2 * 1 + 0) * 1024 + (j 0).val
          omega)).trans ?_
    exact (interleaved_odd _ x0 _ j hp).symm

end Cert.KernelIdeal.BlockValue

end
-- ==== Proof.KernelValue.lean ====
/-
  The kernel's result array as one function of its argument.
  The grid has 8 × 8 points. Point `(p, q)` loads the tile of the argument at rows `1024 p ..`, columns
  `512 q ..`, and writes back a tile of the result at rows `1024 p ..`, columns `1024 q ..`. What it writes is
  the loaded tile interleaved with zero; the column offset `1024 q` is twice the argument's `512 q`, so by the
  tiling law this is the tile of the whole argument interleaved with zero. The 64 output tiles cover the
  `8192 × 8192` result (row `r`, column `c` lies in the tile of point `(r / 1024, c / 1024)`), hence the result
  array ends as the argument interleaved with zero.
-/
import proofs.«136155_j8340826489317_1_alg».proof.Proof.Gen.KernelIdeal.Value
import proofs.«136155_j8340826489317_1_alg».proof.Proof.BlockValue
import proofs.«136155_j8340826489317_1_alg».proof.Proof.LibInterleave
import Idealize.ShloMosaic.Lib.Pipeline.Value
import Idealize.ShloMosaic.Lib.ValueIdx

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)
open Cert.Interleave

variable {F : FTy → Type} [FloatOps F]
variable (m : (ℓ : Loc nD τ sig) → Buf (Elt F) ℓ) (ρ : Dev nD → PrngReg)

theorem offsets_zero : (![0, 0] : Fin 2 → Nat) = fun _ => 0 := funext fun a => by fin_cases a <;> rfl

/-- The result array the kernel ends with: the argument interleaved with the zero word. -/
abbrev result (x : S8192x4096.Idx → Elt F .f32) : S8192x8192.Idx → Elt F .f32 :=
  interleaved (R := 8192) (C := 4096) (C2 := 8192) rfl x (Scalar.ofBits .f32 0x00000000#32)

/-- The two index maps over the grid: the input tile and the output tile of a point have the same tile
    coordinates, and these stay below 8 on both axes. -/
theorem tile_coords : ∀ t : Fin cfg0.N, win0_0.index t (0 : Fin 2) = win0_1.index t (0 : Fin 2)
    ∧ win0_0.index t (1 : Fin 2) = win0_1.index t (1 : Fin 2)
    ∧ win0_1.index t (0 : Fin 2) ≤ 7 ∧ win0_1.index t (1 : Fin 2) ≤ 7 :=
  (by decide +kernel : ∀ t : Fin grid0.N, _)

/-- Every pair of tile coordinates below 8 is some point's. -/
theorem tile_onto : ∀ (q0 : Fin 8) (q1 : Fin 8), ∃ t : Fin cfg0.N, win0_1.index t = ![q0.val, q1.val] :=
  (by decide +kernel : ∀ (q0 : Fin 8) (q1 : Fin 8), ∃ t : Fin grid0.N, win0_1.index t = ![q0.val, q1.val])

/-- The input tile at a point, read at a tile index, is the argument at the index `1024 p` rows and `512 q`
    columns further on. -/
theorem input_tile (c : Dev nD) (t : Fin cfg0.N) (a : S1024x512.Idx) (b : S8192x4096.Idx)
    (h0 : (b 0).val = win0_1.index t (0 : Fin 2) * 1024 + (a 0).val)
    (h1 : (b 1).val = win0_1.index t (1 : Fin 2) * 512 + (a 1).val) :
    iblk m c 0 t a = V m c main_arg0 b := by
  obtain ⟨e0, e1, -, -⟩ := tile_coords t
  show V m c main_arg0 (((cfg0.win 0).blk t).view.emb a) = V m c main_arg0 b
  refine congrArg (V m c main_arg0) (funext fun d => Fin.ext ?_)
  match d with
  | ⟨0, _⟩ =>
    show win0_0.index t (0 : Fin 2) * 1024 + 1 * (a 0).val = (b 0).val
    omega
  | ⟨1, _⟩ =>
    show win0_0.index t (1 : Fin 2) * 512 + 1 * (a 1).val = (b 1).val
    omega

/-- What a point writes back is its tile of `result` of the argument. -/
theorem flushed_eq (c : Dev nD) (t : Fin cfg0.N) :
    (dats m 0 c).flushed 1 t = ((cfg0.win 1).blk t).view.read (Elt F) (result (V m c main_arg0)) := by
  rw [Value.flushed1]
  unfold out0_1
  rw [View.canon_unit_zero offsets_zero]
  simp only [View.ld_unit_zero (S := S1024x512) offsets_zero]
  rw [BlockValue.stored_eq]
  funext y
  show interleaved (R := 1024) (C := 512) (C2 := 1024) rfl (iblk m c 0 t) (Scalar.ofBits .f32 0x00000000#32) y
    = interleaved (R := 8192) (C := 4096) (C2 := 8192) rfl (V m c main_arg0) (Scalar.ofBits .f32 0x00000000#32)
        (((cfg0.win 1).blk t).view.emb y)
  refine interleaved_tile rfl rfl (V m c main_arg0) (iblk m c 0 t) _ (win0_1.index t (0 : Fin 2) * 1024)
    (win0_1.index t (1 : Fin 2) * 512) (fun a b h0 h1 => input_tile m c t a b h0 h1) y _ ?_ ?_
  · show win0_1.index t (0 : Fin 2) * 1024 + 1 * (y 0).val = win0_1.index t (0 : Fin 2) * 1024 + (y 0).val
    omega
  · show win0_1.index t (1 : Fin 2) * 1024 + 1 * (y 1).val = 2 * (win0_1.index t (1 : Fin 2) * 512) + (y 1).val
    omega

/-- An index of the result array is in a point's output tile iff each coordinate is in the tile's range. -/
theorem mem_tile (t : Fin cfg0.N) (i : S8192x8192.Idx) :
    i ∈ ((cfg0.win 1).blk t).view.set ↔ ∀ a : Fin 2, win0_1.index t a * S1024x1024.size a ≤ (i a).val
      ∧ (i a).val < win0_1.index t a * S1024x1024.size a + S1024x1024.size a := by
  show i ∈ ((View.whole main_v0).slice (win0_1.rect t)).set ↔ _
  rw [View.set_slice_whole, Rect.mem_set_unit]
  exact Iff.rfl

/-- The output tiles cover the result array. -/
theorem covered (i : S8192x8192.Idx) :
    ∃ t : Fin cfg0.N, (cfg0.win 1).flush t = true ∧ i ∈ ((cfg0.win 1).blk t).view.set := by
  have hi0 : (i 0).val < 8192 := (i 0).isLt
  have hi1 : (i 1).val < 8192 := (i 1).isLt
  obtain ⟨t, ht⟩ := tile_onto ⟨(i 0).val / 1024, by omega⟩ ⟨(i 1).val / 1024, by omega⟩
  have q0 : win0_1.index t (0 : Fin 2) = (i 0).val / 1024 := congrFun ht 0
  have q1 : win0_1.index t (1 : Fin 2) = (i 1).val / 1024 := congrFun ht 1
  refine ⟨t, flush0_1 t, ?_⟩
  rw [mem_tile]
  intro a
  match a with
  | ⟨0, _⟩ =>
    show win0_1.index t (0 : Fin 2) * 1024 ≤ (i 0).val ∧ (i 0).val < win0_1.index t (0 : Fin 2) * 1024 + 1024
    omega
  | ⟨1, _⟩ =>
    show win0_1.index t (1 : Fin 2) * 1024 ≤ (i 1).val ∧ (i 1).val < win0_1.index t (1 : Fin 2) * 1024 + 1024
    omega

/-- The result array after the run. -/
theorem final (c : Dev nD) :
    (dats m 0 c).arrAt 1 cfg0.N = result (m ((c : Thread nD τ).loc main_arg0)) :=
  (dats m 0 c).arrAt_eq_of_cover 1 (result (V m c main_arg0)) (fun t _ => flushed_eq m c t) covered

/-- The kernel's run: every weakly fair execution terminates with the result array at `result` of the argument,
    the argument unchanged. -/
theorem run : θ_run defs (onTc (τ := τ) (main (F := F))) ⟨m, fun _ => 0, ρ⟩ fun r => ∀ c : Dev nD,
      r.2.mem ((c : Thread nD τ).loc main_v0) = result (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.ArrayValue

end
-- ==== Proof.ReferenceValue.lean ====
/-
  What the reference computes, index by index.
  The reference gives each entry of the argument a trailing axis of extent one, does the same to an all-zero
  array of the same shape, joins the two along that axis — so entry `(r, k, 0)` is `x (r, k)` and entry
  `(r, k, 1)` is zero — and flattens the last two axes. Flattening `[8192, 4096, 2]` to `[8192, 8192]` keeps
  the row and sends `(k, p)` to column `2 k + p`: column `c` comes from `k = c / 2`, `p = c % 2`. Hence the
  result is the argument with a zero after each column.
-/
import proofs.«136155_j8340826489317_1_alg».proof.Proof.Gen.ReferenceIdeal.Read
import proofs.«136155_j8340826489317_1_alg».proof.Proof.LibInterleave
import Idealize.ShloMosaic.Lib.Pipeline.Value
import Idealize.ShloMosaic.Lib.ValueIdx

noncomputable section

namespace Cert.ReferenceIdeal.RefValue

open Cert.ReferenceIdeal Cert.ReferenceIdeal.Gen Idealize.ShloMosaic Idealize.ShloMosaic.ValueIdx
open Cert.Interleave

variable {F : FTy → Type} [FloatOps F]

/-- The reference's result is its argument interleaved with the zero word. -/
theorem result_eq (x : (⟨S8192x4096, .f32⟩ : BufTy).Contents (Elt F)) :
    Read.val_main_v4 (F := F) x
      = interleaved (R := 8192) (C := 4096) (C2 := 8192) rfl x (FloatOps.ofBits .f32 0x00000000#32) := by
  funext i
  have h0 : (i 0).val < 8192 := (i 0).isLt
  have h1 : (i 1).val < 8192 := (i 1).isLt
  rw [Read.val_main_v4_apply]
  unfold Read.val_main_v3
  -- the entry of the joined array that column `c` of row `r` comes from, less its coordinate on the joined axis
  let k : S8192x4096x1.Idx := ix3 (⟨(i 0).val, h0⟩ : Fin 8192) (⟨(i 1).val / 2, by omega⟩ : Fin 4096) (0 : Fin 1)
  by_cases hp : (i 1).val % 2 = 0
  · -- an even column: the first piece, the argument with its unit axis
    rw [concatenate_pair_apply_left (t := S8192x4096x2) (s₁ := S8192x4096x1) (s₂ := S8192x4096x1) (2 : Fin 3) _ _
      concatenates_S8192x4096x1_S8192x4096x1_S8192x4096x2_d2 (Read.idx_main_v4 i) (rfl : (3 : Nat) = 3) k (fun b => match b with
        | ⟨0, _⟩ => by show (i 0).val = ((i 0).val * 8192 + (i 1).val) / 8192; omega
        | ⟨1, _⟩ => by show (i 1).val / 2 = ((i 0).val * 8192 + (i 1).val) / 2 % 4096; omega
        | ⟨2, _⟩ => by show 0 = ((i 0).val * 8192 + (i 1).val) % 2; omega)]
    rw [Read.val_main_v1_apply]
    exact (interleaved_even _ x _ i hp _ rfl rfl).symm
  · -- an odd column: the second piece, zero everywhere
    rw [concatenate_pair_apply_right (t := S8192x4096x2) (s₁ := S8192x4096x1) (s₂ := S8192x4096x1) (2 : Fin 3) _ _
      concatenates_S8192x4096x1_S8192x4096x1_S8192x4096x2_d2 (Read.idx_main_v4 i) (rfl : (3 : Nat) = 3) (rfl : (3 : Nat) = 3) k (fun b => match b with
        | ⟨0, _⟩ => fun _ => by show (i 0).val = ((i 0).val * 8192 + (i 1).val) / 8192; omega
        | ⟨1, _⟩ => fun _ => by show (i 1).val / 2 = ((i 0).val * 8192 + (i 1).val) / 2 % 4096; omega
        | ⟨2, _⟩ => fun hne => absurd rfl hne)
      (by show 0 + 1 = ((i 0).val * 8192 + (i 1).val) % 2; omega)]
    rw [Read.val_main_v2_apply, Read.val_main_v0_apply, Read.val_main_cst_apply]
    exact (interleaved_odd _ x _ i hp).symm

end Cert.ReferenceIdeal.RefValue

end
-- ==== Proof.lean ====
/-
  The kernel and its reference both return their `8192 × 4096` argument with a zero put after each column, an
  `8192 × 8192` array: entry `(r, c)` is `x (r, c / 2)` for even `c` and zero for odd `c`
  (Proof/LibInterleave.lean states that function and its tiling law).
  The reference does it in one step on the whole array (Proof/ReferenceValue.lean). The kernel does it tile by
  tile over an 8 × 8 grid, each point turning a `1024 × 512` tile of the argument into a `1024 × 1024` tile of
  the result by two transposes around a join with zeros (Proof/BlockValue.lean: what one point stores;
  Proof/KernelValue.lean: the 64 tiles are the tiles of one function and cover the result).
  No arithmetic is done on the entries — they are only moved, and the zero is the same word on both sides — so
  the two results agree for every argument, finite or not, and the precondition is never opened.
  The idealization rewrote nothing of the kernel, so there is nothing to preserve; the three programs' runs
  leave the argument array as it was.
-/
import proofs.«136155_j8340826489317_1_alg».proof.Defs
import proofs.«136155_j8340826489317_1_alg».proof.Proof.Gen.Kernel
import proofs.«136155_j8340826489317_1_alg».proof.Proof.Gen.Kernel.Skeleton
import proofs.«136155_j8340826489317_1_alg».proof.Proof.Gen.Kernel.Launch
import proofs.«136155_j8340826489317_1_alg».proof.Proof.Gen.Kernel.Points
import proofs.«136155_j8340826489317_1_alg».proof.Proof.Gen.Kernel.Frame
import proofs.«136155_j8340826489317_1_alg».proof.Proof.Gen.KernelIdeal
import proofs.«136155_j8340826489317_1_alg».proof.Proof.Gen.KernelIdeal.Skeleton
import proofs.«136155_j8340826489317_1_alg».proof.Proof.Gen.KernelIdeal.Launch
import proofs.«136155_j8340826489317_1_alg».proof.Proof.Gen.KernelIdeal.Points
import proofs.«136155_j8340826489317_1_alg».proof.Proof.Gen.KernelIdeal.Frame
import proofs.«136155_j8340826489317_1_alg».proof.Proof.Gen.ReferenceIdeal
import proofs.«136155_j8340826489317_1_alg».proof.Proof.Gen.Pre_finite_inputs
import proofs.«136155_j8340826489317_1_alg».proof.Proof.Gen.KernelIdeal.Value
import proofs.«136155_j8340826489317_1_alg».proof.Proof.Gen.ReferenceIdeal.Run
import proofs.«136155_j8340826489317_1_alg».proof.Proof.Gen.ReferenceIdeal.Read
import proofs.«136155_j8340826489317_1_alg».proof.Proof.KernelValue
import proofs.«136155_j8340826489317_1_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs and leaves its argument unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the argument interleaved with zero: the kernel's tile by tile, the
    reference's in one step, of arguments that agree. -/
theorem algebraic : Cert.algebraic_KernelIdeal_ReferenceIdeal := by
  intro m ρ m' ρ' _ hagree
  refine ⟨_, Cert.KernelIdeal.ArrayValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
